-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S512 .f32) (main_arg5 : FVec F S512x256 .f32) (main_arg6 : FVec F S256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S16384x512 .f32) (main_arg1 : FVec F S512x512 .f32) (main_arg2 : FVec F S512 .f32) (main_arg3 : FVec F S512x512 .f32) (main_arg4 : FVec F S512 .f32) (main_arg5 : FVec F S512x256 .f32) (main_arg6 : FVec F S256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S16384x512 : Shape := ⟨2, ![16384, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x512 : Shape := ⟨2, ![1, 512]⟩
abbrev S1x256 : Shape := ⟨2, ![1, 256]⟩
abbrev S16384x256 : Shape := ⟨2, ![16384, 256]⟩
abbrev S2048x512 : Shape := ⟨2, ![2048, 512]⟩
abbrev S2048x256 : Shape := ⟨2, ![2048, 256]⟩

abbrev nBuf : Space → Nat
  | .hbm => 11
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S1x512, .f32⟩
  | .hbm, ⟨8, _⟩ => ⟨S1x512, .f32⟩
  | .hbm, ⟨9, _⟩ => ⟨S1x256, .f32⟩
  | .hbm, ⟨10, _⟩ => ⟨S16384x256, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S512_S1x512 : S512.ShapeCasts S1x512
  shapeCasts_S256_S1x256 : S256.ShapeCasts S1x256
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x512_S512x512_S2048x512_1_0_0_1_n_n_wf : DotDims.WF S2048x512 S512x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S16384x256.size a
  hwx0_7 : ∀ i : grid0.Coords, EltTy.bits .f32 = 32 ∨ (Rect.block (s := S16384x256) S2048x256.size (cc0_transform_7 i) (hinb0_7 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x512 : Shape := ⟨2, ![1, 512]⟩
abbrev S1x256 : Shape := ⟨2, ![1, 256]⟩
abbrev S16384x256 : Shape := ⟨2, ![16384, 256]⟩

abbrev nBuf : Space → Nat
  | .hbm => 11
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S1x512, .f32⟩
  | .hbm, ⟨8, _⟩ => ⟨S1x512, .f32⟩
  | .hbm, ⟨9, _⟩ => ⟨S1x256, .f32⟩
  | .hbm, ⟨10, _⟩ => ⟨S16384x256, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S512_S1x512 : S512.ShapeCasts S1x512
  shapeCasts_S256_S1x256 : S256.ShapeCasts S1x256
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x512_S512x512_S512x512_1_0_0_1_n_n_wf : DotDims.WF S512x512 S512x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S16384x256.size a
  hwx0_7 : ∀ i : grid0.Coords, EltTy.bits .f32 = 32 ∨ (Rect.block (s := S16384x256) S512x256.size (cc0_transform_7 i) (hinb0_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.Mlp.lean ====
/-
  The three-layer perceptron both programs compute, as one function of the argument arrays.
  A dense layer sends a row h (K entries) to the row whose entry n is  sum over k < K of h(k) * w(k, n), plus b(n).
  The network is  dense( tanh( dense( tanh( dense(x, w0, b0) ), w1, b1) ), w2, b2 )  on each row of x separately:
  entry (r, c) of the result depends on row r of x only, and on all of the weights and biases.
  Everything is on the extended reals; no law beyond the definitions is used, so nothing here needs finiteness.
-/
import Idealize.ShloMosaic.PureOps.Ideal
import Idealize.ShloMosaic.Lib.ValueIdx

noncomputable section

namespace Cert.Mlp

open Idealize.ShloMosaic Idealize.ShloMosaic.ValueIdx

/-- A dense layer on one row: entry n is the row times column n of the weights, plus the bias at n. -/
def dense {K N : Nat} (h : Fin K → EReal) (w : (⟨2, ![K, N]⟩ : Shape).Idx → EReal) (b : Fin N → EReal) (n : Fin N) : EReal :=
  ∑ k : Fin K, h k * w (ix2 k n) + b n

/-- The network on one row of 512 entries: two hidden layers of 512 with tanh, an output layer of 256 without. -/
def mlpRow (x : Fin 512 → EReal)
    (w0 : (⟨2, ![512, 512]⟩ : Shape).Idx → EReal) (b0 : Fin 512 → EReal)
    (w1 : (⟨2, ![512, 512]⟩ : Shape).Idx → EReal) (b1 : Fin 512 → EReal)
    (w2 : (⟨2, ![512, 256]⟩ : Shape).Idx → EReal) (b2 : Fin 256 → EReal) : Fin 256 → EReal :=
  dense (fun k => Ideal.tanh (dense (fun j => Ideal.tanh (dense x w0 b0 j)) w1 b1 k)) w2 b2

/-- The network on R rows: entry (r, c) is the network on row r, read at c. The biases are one-row matrices,
    as the kernel bodies load them. -/
def mlpRows {R : Nat} (x : (⟨2, ![R, 512]⟩ : Shape).Idx → EReal)
    (w0 : (⟨2, ![512, 512]⟩ : Shape).Idx → EReal) (b0 : (⟨2, ![1, 512]⟩ : Shape).Idx → EReal)
    (w1 : (⟨2, ![512, 512]⟩ : Shape).Idx → EReal) (b1 : (⟨2, ![1, 512]⟩ : Shape).Idx → EReal)
    (w2 : (⟨2, ![512, 256]⟩ : Shape).Idx → EReal) (b2 : (⟨2, ![1, 256]⟩ : Shape).Idx → EReal) :
    (⟨2, ![R, 256]⟩ : Shape).Idx → EReal :=
  fun j => mlpRow (fun k => x (ix2 (j 0) k)) w0 (fun n => b0 (ix2 0 n)) w1 (fun n => b1 (ix2 0 n)) w2 (fun n => b2 (ix2 0 n)) (j 1)

/-- The result array [16384, 256] from the seven argument arrays, the biases as vectors. -/
def net (x : (⟨2, ![16384, 512]⟩ : Shape).Idx → EReal)
    (w0 : (⟨2, ![512, 512]⟩ : Shape).Idx → EReal) (b0 : (⟨1, ![512]⟩ : Shape).Idx → EReal)
    (w1 : (⟨2, ![512, 512]⟩ : Shape).Idx → EReal) (b1 : (⟨1, ![512]⟩ : Shape).Idx → EReal)
    (w2 : (⟨2, ![512, 256]⟩ : Shape).Idx → EReal) (b2 : (⟨1, ![256]⟩ : Shape).Idx → EReal) :
    (⟨2, ![16384, 256]⟩ : Shape).Idx → EReal :=
  fun i => mlpRow (fun k => x (ix2 (i 0) k)) w0 (fun n => b0 (ix1 n)) w1 (fun n => b1 (ix1 n)) w2 (fun n => b2 (ix1 n)) (i 1)

end Cert.Mlp

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.DenseBlock.lean ====
/-
  One dense layer as a kernel body computes it on a block of R rows: the block times the weights into a zero
  accumulator, plus the one-row bias broadcast down the R rows. Read at (p, n) it is the dense layer of row p of the
  block, at n; with tanh on top, the tanh of that.
-/
import proofs.«134500_g2000203459963882_pallasbulk_452_23_alg».proof.Proof.Mlp
import proofs.«134500_g2000203459963882_pallasbulk_452_23_alg».proof.Proof.LibPlainDot
import Idealize.ShloMosaic.Lib.Pipeline.Value

noncomputable section

namespace Cert.Mlp

open Idealize.ShloMosaic Idealize.ShloMosaic.ValueIdx

variable {R K N : Nat} {φ₁ φ₂ : FTy}

/-- The one-row bias, cast to its own shape and broadcast to R rows, reads the bias at the column. -/
theorem bias_apply (b : FVec Ideal ⟨2, ![1, N]⟩ .f32)
    (hs : (⟨2, ![1, N]⟩ : Shape).ShapeCasts ⟨2, ![1, N]⟩) (hb : (⟨2, ![1, N]⟩ : Shape).Broadcasts ⟨2, ![R, N]⟩)
    (j : (⟨2, ![R, N]⟩ : Shape).Idx) :
    broadcastTo ⟨2, ![R, N]⟩ (shapeCast ⟨2, ![1, N]⟩ b hs) hb j = b (ix2 0 (j 1)) := by
  rw [shapeCast_self]
  refine broadcastTo_apply b hb j (ix2 0 (j 1)) fun a => ?_
  match a with
  | ⟨0, _⟩ => rfl
  | ⟨1, _⟩ =>
    show (j 1).val = if N = 1 then 0 else (j 1).val
    by_cases hN : N = 1
    · rw [if_pos hN]; have := idx2_lt1 j; omega
    · rw [if_neg hN]

/-- The layer before its activation, at an index of the block. -/
theorem dense_block (prec : Option ContractPrecision) (h : FVec Ideal ⟨2, ![R, K]⟩ φ₁) (w : FVec Ideal ⟨2, ![K, N]⟩ φ₂)
    (b : FVec Ideal ⟨2, ![1, N]⟩ .f32)
    (hs : (⟨2, ![1, N]⟩ : Shape).ShapeCasts ⟨2, ![1, N]⟩) (hb : (⟨2, ![1, N]⟩ : Shape).Broadcasts ⟨2, ![R, N]⟩)
    (j : (⟨2, ![R, N]⟩ : Shape).Idx) :
    addf (matmul (F := Ideal) (DotDims.plain R K N) prec h w (constant ⟨2, ![R, N]⟩ .f32 0x00000000#32))
        (broadcastTo ⟨2, ![R, N]⟩ (shapeCast ⟨2, ![1, N]⟩ b hs) hb) j
      = dense (fun k => h (ix2 (j 0) k)) w (fun n => b (ix2 0 n)) (j 1) := by
  rw [addf_apply, Cert.LibPlainDot.matmul_plain, bias_apply]
  rfl

/-- The layer with its activation, at an index of the block. -/
theorem tanh_dense_block (prec : Option ContractPrecision) (h : FVec Ideal ⟨2, ![R, K]⟩ φ₁) (w : FVec Ideal ⟨2, ![K, N]⟩ φ₂)
    (b : FVec Ideal ⟨2, ![1, N]⟩ .f32)
    (hs : (⟨2, ![1, N]⟩ : Shape).ShapeCasts ⟨2, ![1, N]⟩) (hb : (⟨2, ![1, N]⟩ : Shape).Broadcasts ⟨2, ![R, N]⟩)
    (j : (⟨2, ![R, N]⟩ : Shape).Idx) :
    tanh (addf (matmul (F := Ideal) (DotDims.plain R K N) prec h w (constant ⟨2, ![R, N]⟩ .f32 0x00000000#32))
        (broadcastTo ⟨2, ![R, N]⟩ (shapeCast ⟨2, ![1, N]⟩ b hs) hb)) j
      = Ideal.tanh (dense (fun k => h (ix2 (j 0) k)) w (fun n => b (ix2 0 n)) (j 1)) :=
  congrArg Ideal.tanh (dense_block prec h w b hs hb j)

end Cert.Mlp

end
-- ==== Proof.KernelBlock.lean ====
/-
  What the body of this program computes on a block of 2048 rows: the three-layer perceptron, row by row.
  The body's stored value, unfolded, is  dense, tanh, dense, tanh, dense  of the loaded blocks: the products into zero
  accumulators, the one-row biases broadcast down the rows, and (where the body narrows a matrix operand before a product)
  a change of float format, which on the extended reals is the identity.
-/
import proofs.«134500_g2000203459963882_pallasbulk_452_23_alg».proof.Proof.Gen.KernelIdeal.Skeleton
import proofs.«134500_g2000203459963882_pallasbulk_452_23_alg».proof.Proof.DenseBlock

noncomputable section

namespace Cert.KernelIdeal.Hand

open Cert.KernelIdeal Cert.KernelIdeal.Gen Idealize.ShloMosaic Idealize.ShloMosaic.ValueIdx Cert.Mlp

/-- The value the body stores is the network applied to each row of the block. -/
theorem pay_eq (x0 : Vec Ideal S2048x512 .f32) (x1 : Vec Ideal S512x512 .f32) (x2 : Vec Ideal S1x512 .f32)
    (x3 : Vec Ideal S512x512 .f32) (x4 : Vec Ideal S1x512 .f32) (x5 : Vec Ideal S512x256 .f32) (x6 : Vec Ideal S1x256 .f32) :
    k0_pay1 x0 x1 x2 x3 x4 x5 x6 = mlpRows (R := 2048) x0 x1 x2 x3 x4 x5 x6 := by
  funext j
  unfold k0_pay1
  refine (dense_block (R := 2048) (K := 512) (N := 256) none _ _ _ _ _ j).trans ?_
  unfold mlpRows mlpRow
  refine congrArg (fun h => dense h x5 (fun n => x6 (ix2 0 n)) (j 1)) (funext fun k => ?_)
  refine (tanh_dense_block (R := 2048) (K := 512) (N := 512) none _ _ _ _ _ (ix2 (j 0) k)).trans ?_
  refine congrArg (fun h => Ideal.tanh (dense h x3 (fun n => x4 (ix2 0 n)) k)) (funext fun i => ?_)
  exact tanh_dense_block (R := 2048) (K := 512) (N := 512) none _ _ _ _ _ (ix2 (j 0) i)

end Cert.KernelIdeal.Hand

end
-- ==== Proof.KernelArray.lean ====
/-
  From blocks to the array, for this program's one launch.
  Grid point t works on rows 2048·t … 2048·t + 2047: it fetches those rows of x (all 512 columns), the whole of each weight
  matrix, and the one-row bias matrices the host made from the bias vectors, and writes back those rows of the result (all 256
  columns). What it writes is the network applied to each of its rows, so it is the block of ONE function of the argument
  arrays, `result`. The row blocks tile the [16384, 256] array (row r lies in the block of point r / 2048), so after the
  run the array holds `result` everywhere.
-/
import proofs.«134500_g2000203459963882_pallasbulk_452_23_alg».proof.Proof.Gen.KernelIdeal.Value
import proofs.«134500_g2000203459963882_pallasbulk_452_23_alg».proof.Proof.KernelBlock
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.Mlp

variable (m : (ℓ : Loc nD τ sig) → Buf (Elt Ideal) ℓ) (ρ : Dev nD → PrngReg)

theorem hz : (![0, 0] : Fin 2 → Nat) = fun _ => 0 := funext fun a => by fin_cases a <;> rfl

/-- The network of the seven argument arrays as launched. -/
def result (c : Dev nD) : Buf (Elt Ideal) ((c : Thread nD τ).loc main_v3) :=
  net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The printed index maps over the grid: the x window and the result window are at block row t, column block 0;
    every other window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The one-row bias matrices the host makes before the launch -/

theorem V_v0 (c : Dev nD) : (V m c main_v0 : S1x512.Idx → EReal)
    = shapeCast S1x512 (m ((c : Thread nD τ).loc main_arg2)) shapeCasts_S512_S1x512 := by
  dsimp only [Gen.V, Gen.hostOps0]; after_results; rfl

theorem V_v1 (c : Dev nD) : (V m c main_v1 : S1x512.Idx → EReal)
    = shapeCast S1x512 (m ((c : Thread nD τ).loc main_arg4)) shapeCasts_S512_S1x512 := by
  dsimp only [Gen.V, Gen.hostOps0]; after_results; rfl

theorem V_v2 (c : Dev nD) : (V m c main_v2 : S1x256.Idx → EReal)
    = shapeCast S1x256 (m ((c : Thread nD τ).loc main_arg6)) shapeCasts_S256_S1x256 := by
  dsimp only [Gen.V, Gen.hostOps0]; after_results; rfl

/-! ## Each input window's block at a point, read at an index -/

/-- The x window's block at point t is rows 2048·t … of x. -/
theorem blk_x (c : Dev nD) (t : Fin cfg0.N) (p : Fin 2048) (k : Fin 512) (r : Fin 16384) (hr : r.val = 2048 * t.val + p.val) :
    (iblk m c 0 t : Vec Ideal S2048x512 .f32) (ix2 p k) = (m ((c : Thread nD τ).loc main_arg0) : S16384x512.Idx → EReal) (ix2 r k) := by
  obtain ⟨e0, e1, -⟩ := idx_facts t
  unfold iblk
  show V m c main_arg0 _ = _
  rw [V_main_arg0]
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 512 + 1 * k.val = k.val; rw [e1]; omega

/-- The first weight window's block is the whole of w0, at every point. -/
theorem blk_w0 (c : Dev nD) (t : Fin cfg0.N) :
    (iblk m c 1 t : Vec Ideal S512x512 .f32) = m ((c : Thread nD τ).loc main_arg1) := by
  obtain ⟨-, -, e0, e1, -⟩ := idx_facts t
  funext x
  unfold iblk
  show V m c main_arg1 _ = _
  rw [V_main_arg1]
  refine congrArg _ (funext fun a => Fin.ext ?_)
  match a with
  | ⟨0, _⟩ => show win0_1.index t (0 : Fin 2) * 512 + 1 * (x 0).val = (x 0).val; rw [e0]; omega
  | ⟨1, _⟩ => show win0_1.index t (1 : Fin 2) * 512 + 1 * (x 1).val = (x 1).val; rw [e1]; omega

/-- The second weight window's block is the whole of w1. -/
theorem blk_w1 (c : Dev nD) (t : Fin cfg0.N) :
    (iblk m c 3 t : Vec Ideal S512x512 .f32) = m ((c : Thread nD τ).loc main_arg3) := by
  obtain ⟨-, -, -, -, -, -, e0, e1, -⟩ := idx_facts t
  funext x
  unfold iblk
  show V m c main_arg3 _ = _
  rw [V_main_arg3]
  refine congrArg _ (funext fun a => Fin.ext ?_)
  match a with
  | ⟨0, _⟩ => show win0_3.index t (0 : Fin 2) * 512 + 1 * (x 0).val = (x 0).val; rw [e0]; omega
  | ⟨1, _⟩ => show win0_3.index t (1 : Fin 2) * 512 + 1 * (x 1).val = (x 1).val; rw [e1]; omega

/-- The third weight window's block is the whole of w2. -/
theorem blk_w2 (c : Dev nD) (t : Fin cfg0.N) :
    (iblk m c 5 t : Vec Ideal S512x256 .f32) = m ((c : Thread nD τ).loc main_arg5) := by
  obtain ⟨-, -, -, -, -, -, -, -, -, -, e0, e1, -⟩ := idx_facts t
  funext x
  unfold iblk
  show V m c main_arg5 _ = _
  rw [V_main_arg5]
  refine congrArg _ (funext fun a => Fin.ext ?_)
  match a with
  | ⟨0, _⟩ => show win0_5.index t (0 : Fin 2) * 512 + 1 * (x 0).val = (x 0).val; rw [e0]; omega
  | ⟨1, _⟩ => show win0_5.index t (1 : Fin 2) * 256 + 1 * (x 1).val = (x 1).val; rw [e1]; omega

/-- The first bias window's block, at (0, n), is entry n of b0. -/
theorem blk_b0 (c : Dev nD) (t : Fin cfg0.N) (n : Fin 512) :
    (iblk m c 2 t : Vec Ideal S1x512 .f32) (ix2 0 n) = (m ((c : Thread nD τ).loc main_arg2) : S512.Idx → EReal) (ix1 n) := by
  obtain ⟨-, -, -, -, e0, e1, -⟩ := idx_facts t
  unfold iblk
  show V m c main_v0 _ = _
  rw [V_v0, ← shapeCast_a_1a_apply (m ((c : Thread nD τ).loc main_arg2)) shapeCasts_S512_S1x512 0 n]
  refine congrArg _ (funext fun a => Fin.ext ?_)
  match a with
  | ⟨0, _⟩ => show win0_2.index t (0 : Fin 2) * 1 + 1 * 0 = 0; rw [e0]
  | ⟨1, _⟩ => show win0_2.index t (1 : Fin 2) * 512 + 1 * n.val = n.val; rw [e1]; omega

/-- The second bias window's block, at (0, n), is entry n of b1. -/
theorem blk_b1 (c : Dev nD) (t : Fin cfg0.N) (n : Fin 512) :
    (iblk m c 4 t : Vec Ideal S1x512 .f32) (ix2 0 n) = (m ((c : Thread nD τ).loc main_arg4) : S512.Idx → EReal) (ix1 n) := by
  obtain ⟨-, -, -, -, -, -, -, -, e0, e1, -⟩ := idx_facts t
  unfold iblk
  show V m c main_v1 _ = _
  rw [V_v1, ← shapeCast_a_1a_apply (m ((c : Thread nD τ).loc main_arg4)) shapeCasts_S512_S1x512 0 n]
  refine congrArg _ (funext fun a => Fin.ext ?_)
  match a with
  | ⟨0, _⟩ => show win0_4.index t (0 : Fin 2) * 1 + 1 * 0 = 0; rw [e0]
  | ⟨1, _⟩ => show win0_4.index t (1 : Fin 2) * 512 + 1 * n.val = n.val; rw [e1]; omega

/-- The third bias window's block, at (0, n), is entry n of b2. -/
theorem blk_b2 (c : Dev nD) (t : Fin cfg0.N) (n : Fin 256) :
    (iblk m c 6 t : Vec Ideal S1x256 .f32) (ix2 0 n) = (m ((c : Thread nD τ).loc main_arg6) : S256.Idx → EReal) (ix1 n) := by
  obtain ⟨-, -, -, -, -, -, -, -, -, -, -, -, e0, e1, -⟩ := idx_facts t
  unfold iblk
  show V m c main_v2 _ = _
  rw [V_v2, ← shapeCast_a_1a_apply (m ((c : Thread nD τ).loc main_arg6)) shapeCasts_S256_S1x256 0 n]
  refine congrArg _ (funext fun a => Fin.ext ?_)
  match a with
  | ⟨0, _⟩ => show win0_6.index t (0 : Fin 2) * 1 + 1 * 0 = 0; rw [e0]
  | ⟨1, _⟩ => show win0_6.index t (1 : Fin 2) * 256 + 1 * n.val = n.val; rw [e1]; omega

/-! ## What a point writes back, and the whole array -/

/-- Point t writes back block t of `result`: the network on rows 2048·t … of x. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz]
  simp only [View.ld_unit_zero (S := S2048x512) hz, View.ld_unit_zero (S := S512x512) hz, View.ld_unit_zero (S := S1x512) hz,
    View.ld_unit_zero (S := S512x256) hz, View.ld_unit_zero (S := S1x256) hz]
  rw [pay_eq, blk_w0, blk_w1, blk_w2]
  obtain ⟨-, -, -, -, -, -, -, -, -, -, -, -, -, -, e0, e1⟩ := idx_facts t
  funext y
  obtain ⟨p, q, rfl⟩ : ∃ (p : Fin 2048) (q : Fin 256), y = ix2 p q := ⟨y 0, y 1, eq_ix2 y⟩
  have hr : 2048 * t.val + p.val < 16384 := by
    have hN : cfg0.N = 8 := N_0
    have := t.isLt; have := p.isLt; omega
  have hemb : ((cfg0.win 7).blk t).view.emb (ix2 p q) = ix2 (⟨2048 * t.val + p.val, hr⟩ : Fin 16384) q := by
    funext a; apply Fin.ext
    match a with
    | ⟨0, _⟩ => show win0_7.index t (0 : Fin 2) * 2048 + 1 * p.val = 2048 * t.val + p.val; rw [e0]; omega
    | ⟨1, _⟩ => show win0_7.index t (1 : Fin 2) * 256 + 1 * q.val = q.val; rw [e1]; omega
  show mlpRows (R := 2048) (iblk m c 0 t) _ (iblk m c 2 t) _ (iblk m c 4 t) _ (iblk m c 6 t) (ix2 p q)
    = result m c (((cfg0.win 7).blk t).view.emb (ix2 p q))
  rw [hemb]
  unfold mlpRows result net
  simp only [blk_b0, blk_b1, blk_b2, blk_x m c t p _ ⟨2048 * t.val + p.val, hr⟩ rfl]

/-- An index of the array is in point t's block iff each coordinate is in the block's range on its axis. -/
theorem mem_blk (t : Fin cfg0.N) (i : S16384x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v3).slice (win0_7.rect t)).set ↔ _
  rw [View.set_slice_whole, Rect.mem_set_unit]
  exact Iff.rfl

/-- Every index of the result array is in the block of the point its row falls under. -/
theorem cover (i : S16384x256.Idx) : ∃ t : Fin cfg0.N, (cfg0.win 7).flush t = true ∧ i ∈ ((cfg0.win 7).blk t).view.set := by
  have hi0 : (i 0).val < 16384 := (i 0).isLt
  have hi1 : (i 1).val < 256 := (i 1).isLt
  have hN : cfg0.N = 8 := N_0
  let t : Fin cfg0.N := ⟨(i 0).val / 2048, by rw [hN]; omega⟩
  obtain ⟨-, -, -, -, -, -, -, -, -, -, -, -, -, -, e0, e1⟩ := idx_facts t
  have ht : t.val = (i 0).val / 2048 := rfl
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; rw [e0, ht]; omega
  | ⟨1, _⟩ => show win0_7.index t (1 : Fin 2) * 256 ≤ (i 1).val ∧ (i 1).val < win0_7.index t (1 : Fin 2) * 256 + 256; rw [e1]; omega

/-- After the run the result array holds `result`. -/
theorem final (c : Dev nD) : (dats m 0 c).arrAt 7 cfg0.N = result m c :=
  (dats m 0 c).arrAt_eq_of_cover 7 (result m c) (fun t _ => flushed_eq m c t) cover

/-- The run, read: the result array at the network of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Hand

end
-- ==== Proof.ReferenceBlock.lean ====
/-
  What the body of this program computes on a block of 512 rows: the three-layer perceptron, row by row.
  The body's stored value, unfolded, is  dense, tanh, dense, tanh, dense  of the loaded blocks: the products into zero
  accumulators, the one-row biases broadcast down the rows, and (where the body narrows a matrix operand before a product)
  a change of float format, which on the extended reals is the identity.
-/
import proofs.«134500_g2000203459963882_pallasbulk_452_23_alg».proof.Proof.Gen.ReferenceIdeal.Skeleton
import proofs.«134500_g2000203459963882_pallasbulk_452_23_alg».proof.Proof.DenseBlock

noncomputable section

namespace Cert.ReferenceIdeal.Hand

open Cert.ReferenceIdeal Cert.ReferenceIdeal.Gen Idealize.ShloMosaic Idealize.ShloMosaic.ValueIdx Cert.Mlp

/-- The value the body stores is the network applied to each row of the block. -/
theorem pay_eq (x0 : Vec Ideal S512x512 .f32) (x1 : Vec Ideal S512x512 .f32) (x2 : Vec Ideal S1x512 .f32)
    (x3 : Vec Ideal S512x512 .f32) (x4 : Vec Ideal S1x512 .f32) (x5 : Vec Ideal S512x256 .f32) (x6 : Vec Ideal S1x256 .f32) :
    k0_pay1 x0 x1 x2 x3 x4 x5 x6 = mlpRows (R := 512) x0 x1 x2 x3 x4 x5 x6 := by
  funext j
  unfold k0_pay1
  refine (dense_block (R := 512) (K := 512) (N := 256) none _ _ _ _ _ j).trans ?_
  unfold mlpRows mlpRow
  refine congrArg (fun h => dense h x5 (fun n => x6 (ix2 0 n)) (j 1)) (funext fun k => ?_)
  refine (tanh_dense_block (R := 512) (K := 512) (N := 512) none _ _ _ _ _ (ix2 (j 0) k)).trans ?_
  refine congrArg (fun h => Ideal.tanh (dense h x3 (fun n => x4 (ix2 0 n)) k)) (funext fun i => ?_)
  exact tanh_dense_block (R := 512) (K := 512) (N := 512) none _ _ _ _ _ (ix2 (j 0) i)

end Cert.ReferenceIdeal.Hand

end
-- ==== Proof.ReferenceArray.lean ====
/-
  From blocks to the array, for this program's one launch.
  Grid point t works on rows 512·t … 512·t + 511: it fetches those rows of x (all 512 columns), the whole of each weight
  matrix, and the one-row bias matrices the host made from the bias vectors, and writes back those rows of the result (all 256
  columns). What it writes is the network applied to each of its rows, so it is the block of ONE function of the argument
  arrays, `result`. The row blocks tile the [16384, 256] array (row r lies in the block of point r / 512), so after the
  run the array holds `result` everywhere.
-/
import proofs.«134500_g2000203459963882_pallasbulk_452_23_alg».proof.Proof.Gen.ReferenceIdeal.Value
import proofs.«134500_g2000203459963882_pallasbulk_452_23_alg».proof.Proof.ReferenceBlock
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen Cert.ReferenceIdeal.Value Idealize.ShloMosaic.ValueIdx Cert.Mlp

variable (m : (ℓ : Loc nD τ sig) → Buf (Elt Ideal) ℓ) (ρ : Dev nD → PrngReg)

theorem hz : (![0, 0] : Fin 2 → Nat) = fun _ => 0 := funext fun a => by fin_cases a <;> rfl

/-- The network of the seven argument arrays as launched. -/
def result (c : Dev nD) : Buf (Elt Ideal) ((c : Thread nD τ).loc main_v3) :=
  net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The printed index maps over the grid: the x window and the result window are at block row t, column block 0;
    every other window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The one-row bias matrices the host makes before the launch -/

theorem V_v0 (c : Dev nD) : (V m c main_v0 : S1x512.Idx → EReal)
    = shapeCast S1x512 (m ((c : Thread nD τ).loc main_arg2)) shapeCasts_S512_S1x512 := by
  dsimp only [Gen.V, Gen.hostOps0]; after_results; rfl

theorem V_v1 (c : Dev nD) : (V m c main_v1 : S1x512.Idx → EReal)
    = shapeCast S1x512 (m ((c : Thread nD τ).loc main_arg4)) shapeCasts_S512_S1x512 := by
  dsimp only [Gen.V, Gen.hostOps0]; after_results; rfl

theorem V_v2 (c : Dev nD) : (V m c main_v2 : S1x256.Idx → EReal)
    = shapeCast S1x256 (m ((c : Thread nD τ).loc main_arg6)) shapeCasts_S256_S1x256 := by
  dsimp only [Gen.V, Gen.hostOps0]; after_results; rfl

/-! ## Each input window's block at a point, read at an index -/

/-- The x window's block at point t is rows 512·t … of x. -/
theorem blk_x (c : Dev nD) (t : Fin cfg0.N) (p : Fin 512) (k : Fin 512) (r : Fin 16384) (hr : r.val = 512 * t.val + p.val) :
    (iblk m c 0 t : Vec Ideal S512x512 .f32) (ix2 p k) = (m ((c : Thread nD τ).loc main_arg0) : S16384x512.Idx → EReal) (ix2 r k) := by
  obtain ⟨e0, e1, -⟩ := idx_facts t
  unfold iblk
  show V m c main_arg0 _ = _
  rw [V_main_arg0]
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 512 + 1 * k.val = k.val; rw [e1]; omega

/-- The first weight window's block is the whole of w0, at every point. -/
theorem blk_w0 (c : Dev nD) (t : Fin cfg0.N) :
    (iblk m c 1 t : Vec Ideal S512x512 .f32) = m ((c : Thread nD τ).loc main_arg1) := by
  obtain ⟨-, -, e0, e1, -⟩ := idx_facts t
  funext x
  unfold iblk
  show V m c main_arg1 _ = _
  rw [V_main_arg1]
  refine congrArg _ (funext fun a => Fin.ext ?_)
  match a with
  | ⟨0, _⟩ => show win0_1.index t (0 : Fin 2) * 512 + 1 * (x 0).val = (x 0).val; rw [e0]; omega
  | ⟨1, _⟩ => show win0_1.index t (1 : Fin 2) * 512 + 1 * (x 1).val = (x 1).val; rw [e1]; omega

/-- The second weight window's block is the whole of w1. -/
theorem blk_w1 (c : Dev nD) (t : Fin cfg0.N) :
    (iblk m c 3 t : Vec Ideal S512x512 .f32) = m ((c : Thread nD τ).loc main_arg3) := by
  obtain ⟨-, -, -, -, -, -, e0, e1, -⟩ := idx_facts t
  funext x
  unfold iblk
  show V m c main_arg3 _ = _
  rw [V_main_arg3]
  refine congrArg _ (funext fun a => Fin.ext ?_)
  match a with
  | ⟨0, _⟩ => show win0_3.index t (0 : Fin 2) * 512 + 1 * (x 0).val = (x 0).val; rw [e0]; omega
  | ⟨1, _⟩ => show win0_3.index t (1 : Fin 2) * 512 + 1 * (x 1).val = (x 1).val; rw [e1]; omega

/-- The third weight window's block is the whole of w2. -/
theorem blk_w2 (c : Dev nD) (t : Fin cfg0.N) :
    (iblk m c 5 t : Vec Ideal S512x256 .f32) = m ((c : Thread nD τ).loc main_arg5) := by
  obtain ⟨-, -, -, -, -, -, -, -, -, -, e0, e1, -⟩ := idx_facts t
  funext x
  unfold iblk
  show V m c main_arg5 _ = _
  rw [V_main_arg5]
  refine congrArg _ (funext fun a => Fin.ext ?_)
  match a with
  | ⟨0, _⟩ => show win0_5.index t (0 : Fin 2) * 512 + 1 * (x 0).val = (x 0).val; rw [e0]; omega
  | ⟨1, _⟩ => show win0_5.index t (1 : Fin 2) * 256 + 1 * (x 1).val = (x 1).val; rw [e1]; omega

/-- The first bias window's block, at (0, n), is entry n of b0. -/
theorem blk_b0 (c : Dev nD) (t : Fin cfg0.N) (n : Fin 512) :
    (iblk m c 2 t : Vec Ideal S1x512 .f32) (ix2 0 n) = (m ((c : Thread nD τ).loc main_arg2) : S512.Idx → EReal) (ix1 n) := by
  obtain ⟨-, -, -, -, e0, e1, -⟩ := idx_facts t
  unfold iblk
  show V m c main_v0 _ = _
  rw [V_v0, ← shapeCast_a_1a_apply (m ((c : Thread nD τ).loc main_arg2)) shapeCasts_S512_S1x512 0 n]
  refine congrArg _ (funext fun a => Fin.ext ?_)
  match a with
  | ⟨0, _⟩ => show win0_2.index t (0 : Fin 2) * 1 + 1 * 0 = 0; rw [e0]
  | ⟨1, _⟩ => show win0_2.index t (1 : Fin 2) * 512 + 1 * n.val = n.val; rw [e1]; omega

/-- The second bias window's block, at (0, n), is entry n of b1. -/
theorem blk_b1 (c : Dev nD) (t : Fin cfg0.N) (n : Fin 512) :
    (iblk m c 4 t : Vec Ideal S1x512 .f32) (ix2 0 n) = (m ((c : Thread nD τ).loc main_arg4) : S512.Idx → EReal) (ix1 n) := by
  obtain ⟨-, -, -, -, -, -, -, -, e0, e1, -⟩ := idx_facts t
  unfold iblk
  show V m c main_v1 _ = _
  rw [V_v1, ← shapeCast_a_1a_apply (m ((c : Thread nD τ).loc main_arg4)) shapeCasts_S512_S1x512 0 n]
  refine congrArg _ (funext fun a => Fin.ext ?_)
  match a with
  | ⟨0, _⟩ => show win0_4.index t (0 : Fin 2) * 1 + 1 * 0 = 0; rw [e0]
  | ⟨1, _⟩ => show win0_4.index t (1 : Fin 2) * 512 + 1 * n.val = n.val; rw [e1]; omega

/-- The third bias window's block, at (0, n), is entry n of b2. -/
theorem blk_b2 (c : Dev nD) (t : Fin cfg0.N) (n : Fin 256) :
    (iblk m c 6 t : Vec Ideal S1x256 .f32) (ix2 0 n) = (m ((c : Thread nD τ).loc main_arg6) : S256.Idx → EReal) (ix1 n) := by
  obtain ⟨-, -, -, -, -, -, -, -, -, -, -, -, e0, e1, -⟩ := idx_facts t
  unfold iblk
  show V m c main_v2 _ = _
  rw [V_v2, ← shapeCast_a_1a_apply (m ((c : Thread nD τ).loc main_arg6)) shapeCasts_S256_S1x256 0 n]
  refine congrArg _ (funext fun a => Fin.ext ?_)
  match a with
  | ⟨0, _⟩ => show win0_6.index t (0 : Fin 2) * 1 + 1 * 0 = 0; rw [e0]
  | ⟨1, _⟩ => show win0_6.index t (1 : Fin 2) * 256 + 1 * n.val = n.val; rw [e1]; omega

/-! ## What a point writes back, and the whole array -/

/-- Point t writes back block t of `result`: the network on rows 512·t … of x. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz]
  simp only [View.ld_unit_zero (S := S512x512) hz, View.ld_unit_zero (S := S1x512) hz,
    View.ld_unit_zero (S := S512x256) hz, View.ld_unit_zero (S := S1x256) hz]
  rw [pay_eq, blk_w0, blk_w1, blk_w2]
  obtain ⟨-, -, -, -, -, -, -, -, -, -, -, -, -, -, e0, e1⟩ := idx_facts t
  funext y
  obtain ⟨p, q, rfl⟩ : ∃ (p : Fin 512) (q : Fin 256), y = ix2 p q := ⟨y 0, y 1, eq_ix2 y⟩
  have hr : 512 * t.val + p.val < 16384 := by
    have hN : cfg0.N = 32 := N_0
    have := t.isLt; have := p.isLt; omega
  have hemb : ((cfg0.win 7).blk t).view.emb (ix2 p q) = ix2 (⟨512 * t.val + p.val, hr⟩ : Fin 16384) q := by
    funext a; apply Fin.ext
    match a with
    | ⟨0, _⟩ => show win0_7.index t (0 : Fin 2) * 512 + 1 * p.val = 512 * t.val + p.val; rw [e0]; omega
    | ⟨1, _⟩ => show win0_7.index t (1 : Fin 2) * 256 + 1 * q.val = q.val; rw [e1]; omega
  show mlpRows (R := 512) (iblk m c 0 t) _ (iblk m c 2 t) _ (iblk m c 4 t) _ (iblk m c 6 t) (ix2 p q)
    = result m c (((cfg0.win 7).blk t).view.emb (ix2 p q))
  rw [hemb]
  unfold mlpRows result net
  simp only [blk_b0, blk_b1, blk_b2, blk_x m c t p _ ⟨512 * t.val + p.val, hr⟩ rfl]

/-- An index of the array is in point t's block iff each coordinate is in the block's range on its axis. -/
theorem mem_blk (t : Fin cfg0.N) (i : S16384x256.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v3).slice (win0_7.rect t)).set ↔ _
  rw [View.set_slice_whole, Rect.mem_set_unit]
  exact Iff.rfl

/-- Every index of the result array is in the block of the point its row falls under. -/
theorem cover (i : S16384x256.Idx) : ∃ t : Fin cfg0.N, (cfg0.win 7).flush t = true ∧ i ∈ ((cfg0.win 7).blk t).view.set := by
  have hi0 : (i 0).val < 16384 := (i 0).isLt
  have hi1 : (i 1).val < 256 := (i 1).isLt
  have hN : cfg0.N = 32 := N_0
  let t : Fin cfg0.N := ⟨(i 0).val / 512, by rw [hN]; omega⟩
  obtain ⟨-, -, -, -, -, -, -, -, -, -, -, -, -, -, e0, e1⟩ := idx_facts t
  have ht : t.val = (i 0).val / 512 := rfl
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; rw [e0, ht]; omega
  | ⟨1, _⟩ => show win0_7.index t (1 : Fin 2) * 256 ≤ (i 1).val ∧ (i 1).val < win0_7.index t (1 : Fin 2) * 256 + 256; rw [e1]; omega

/-- After the run the result array holds `result`. -/
theorem final (c : Dev nD) : (dats m 0 c).arrAt 7 cfg0.N = result m c :=
  (dats m 0 c).arrAt_eq_of_cover 7 (result m c) (fun t _ => flushed_eq m c t) cover

/-- The run, read: the result array at the network of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.ReferenceIdeal.Hand

end
-- ==== Proof.lean ====
/-
  The kernel and the reference are the same three-layer perceptron,
      y = dense( tanh( dense( tanh( dense(x, w0, b0) ), w1, b1) ), w2, b2 ),    dense(h, w, b)(n) = sum over k of h(k) * w(k, n) + b(n),
  applied to each of the 16384 rows of x. Both are one launch over row blocks: the kernel takes 2048 rows at a grid point
  (8 points), the reference 512 (32 points); the kernel also narrows each matrix operand to a shorter float format before
  each product, which on the extended reals changes nothing. A row of the result depends on the same row of x only, so the
  size of the row blocks does not matter: after either run the result array is `Cert.Mlp.net` of the argument arrays
  (Proof/KernelArray.lean, Proof/ReferenceArray.lean), and the two are equal because the arguments agree. The sums are over
  the same index sets in the same form on both sides, so no law of the extended reals is needed and the precondition
  (finite inputs) is never opened.
  The three frames are the generated ones; the idealization rewrote nothing, so `preserves` is `True`.
-/
import proofs.«134500_g2000203459963882_pallasbulk_452_23_alg».proof.Defs
import proofs.«134500_g2000203459963882_pallasbulk_452_23_alg».proof.Proof.Gen.Kernel
import proofs.«134500_g2000203459963882_pallasbulk_452_23_alg».proof.Proof.Gen.Kernel.Skeleton
import proofs.«134500_g2000203459963882_pallasbulk_452_23_alg».proof.Proof.Gen.Kernel.Launch
import proofs.«134500_g2000203459963882_pallasbulk_452_23_alg».proof.Proof.Gen.Kernel.Points
import proofs.«134500_g2000203459963882_pallasbulk_452_23_alg».proof.Proof.Gen.Kernel.Frame
import proofs.«134500_g2000203459963882_pallasbulk_452_23_alg».proof.Proof.Gen.KernelIdeal
import proofs.«134500_g2000203459963882_pallasbulk_452_23_alg».proof.Proof.Gen.KernelIdeal.Skeleton
import proofs.«134500_g2000203459963882_pallasbulk_452_23_alg».proof.Proof.Gen.KernelIdeal.Launch
import proofs.«134500_g2000203459963882_pallasbulk_452_23_alg».proof.Proof.Gen.KernelIdeal.Points
import proofs.«134500_g2000203459963882_pallasbulk_452_23_alg».proof.Proof.Gen.KernelIdeal.Frame
import proofs.«134500_g2000203459963882_pallasbulk_452_23_alg».proof.Proof.Gen.ReferenceIdeal
import proofs.«134500_g2000203459963882_pallasbulk_452_23_alg».proof.Proof.Gen.ReferenceIdeal.Skeleton
import proofs.«134500_g2000203459963882_pallasbulk_452_23_alg».proof.Proof.Gen.ReferenceIdeal.Launch
import proofs.«134500_g2000203459963882_pallasbulk_452_23_alg».proof.Proof.Gen.ReferenceIdeal.Points
import proofs.«134500_g2000203459963882_pallasbulk_452_23_alg».proof.Proof.Gen.ReferenceIdeal.Frame
import proofs.«134500_g2000203459963882_pallasbulk_452_23_alg».proof.Proof.Gen.Pre_finite_inputs
import proofs.«134500_g2000203459963882_pallasbulk_452_23_alg».proof.Proof.Gen.KernelIdeal.Value
import proofs.«134500_g2000203459963882_pallasbulk_452_23_alg».proof.Proof.Gen.ReferenceIdeal.Value
import proofs.«134500_g2000203459963882_pallasbulk_452_23_alg».proof.Proof.KernelArray
import proofs.«134500_g2000203459963882_pallasbulk_452_23_alg».proof.Proof.ReferenceArray
import Idealize.ShloMosaic.Adequacy
import Idealize.ShloMosaic.Init

noncomputable section

namespace Cert.Proof

open Idealize.ShloMosaic Idealize.SL.Sem

/-- Both result arrays end at the network of the argument arrays; the arguments agree, so the arrays are equal. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6⟩ := hagree c
  unfold Cert.ReferenceIdeal.Hand.result Cert.KernelIdeal.Hand.result
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
